-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_c_2 : IVec S_ 32 := constantI S_ 32 0#32
  let main_v9 : IVec S16777216 32 := broadcastInDim S16777216 ![] bcast_S_S16777216 main_c_2
  let main_v10 : IVec S16777216 1 := cmpi .sge main_arg2 main_v9
  let main_c_3 : IVec S_ 1 := constantI S_ 1 1#1
  let main_v11 : IVec S_ 1 := (fun x v => Host.reduce IntOp.andi x v reducesTo_S16777216_S_d0 h_S_) main_v10 main_c_3
  let main_v12 : IVec S_ 1 := andi main_v8 main_v11
  main_v12
-- ==== Kernel.lean ====
abbrev S16777216 : Shape := ⟨1, ![16777216]⟩
abbrev S131072x128 : Shape := ⟨2, ![131072, 128]⟩
abbrev S2x1x1 : Shape := ⟨3, ![2, 1, 1]⟩
abbrev S8192x128 : Shape := ⟨2, ![8192, 128]⟩
abbrev S1x1x1 : Shape := ⟨3, ![1, 1, 1]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S131072x128, .f32⟩
  | .hbm, ⟨4, _⟩ => ⟨S131072x128, .f32⟩
  | .hbm, ⟨5, _⟩ => ⟨S131072x128, .i32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S1, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .i32⟩
  | .local _ .vmem, ⟨5, _⟩ => ⟨S8192x128, .i32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16777216_S131072x128 : S16777216.ShapeCasts S131072x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .i32 = 32 ∨ (Rect.block (s := S131072x128) S8192x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩
abbrev S1 : Shape := ⟨1, ![1]⟩

abbrev nBuf : Space → Nat
  | .hbm => 31
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .i1⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .i1⟩
  | .hbm, ⟨24, _⟩ => ⟨S_, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S_, .f32⟩
  | .hbm, ⟨30, _⟩ => ⟨S1, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel
  shapeCasts_S_S1 : S_.ShapeCasts S1

variable [Facts₀]

class Facts : Prop extends Facts₀ where

variable [Facts]
-- ==== Proof.Spec.lean ====
/-
  The masked smooth-L1 sum, element by element.

  With d = o - l and n the length read as a signed integer, the kernel adds, per element,
      [ |d| * n >= 1 ]  *  ( d*d  if |d| < 1/2,  |d| - 1/4  otherwise ),
  and the reference
      [ |d| >= 1/n ]    *  ( (1/2 * d * d) / (1/2)  if |d| < 1/2,  |d| - 1/4  otherwise ).
  Both then sum over all 2^24 elements; the kernel walks them as 16 blocks of 8192 rows of 128 lanes
  (element (t*8192 + r)*128 + l), eight blocks per core.
-/
import Idealize.ShloMosaic.PureOps.Ideal
import Idealize.ShloMosaic.Lib.ValueIdx

noncomputable section

namespace Cert.MaskedLoss

open Idealize.ShloMosaic

/-- |o - l| on the extended reals: the larger of the difference and its negative. -/
abbrev adiff (o l : EReal) : EReal := max (o - l) (-(o - l))

/-- The kernel's term for one element: the threshold test multiplies by the length. -/
def kterm (o l : EReal) (w : BitVec 32) : EReal :=
  Scalar.select (Ideal.cmp .oge (adiff o l * ((w.toInt : ℝ) : EReal)) (Ideal.ofBits .f32 0x3F800000#32))
    (Scalar.select (Ideal.cmp .olt (adiff o l) (Ideal.ofBits .f32 0x3F000000#32))
      ((o - l) * (o - l))
      (adiff o l - Ideal.ofBits .f32 0x3E800000#32))
    (Ideal.ofBits .f32 0x00000000#32)

/-- The reference's term for one element: the threshold test divides by the length. -/
def rterm (o l : EReal) (w : BitVec 32) : EReal :=
  Scalar.select (Ideal.cmp .oge (adiff o l) (Ideal.div (Ideal.ofBits .f32 0x3F800000#32) ((w.toInt : ℝ) : EReal)))
    (Scalar.select (Ideal.cmp .olt (adiff o l) (Ideal.ofBits .f32 0x3F000000#32))
      (Ideal.div (Ideal.ofBits .f32 0x3F000000#32 * (o - l) * (o - l)) (Ideal.ofBits .f32 0x3F000000#32))
      (adiff o l - Ideal.ofBits .f32 0x3E800000#32))
    (Ideal.ofBits .f32 0x00000000#32)

/-- The flat position of lane `l` of row `r` of block `t`. -/
def pos (t : Fin 16) (r : Fin 8192) (l : Fin 128) : Fin 16777216 :=
  ⟨(t.val * 8192 + r.val) * 128 + l.val, by have := t.isLt; have := r.isLt; have := l.isLt; omega⟩

/-- Block `j` of core `c`. -/
def pt (c : Fin 2) (j : Fin 8) : Fin 16 :=
  ⟨c.val * 8 + j.val, by have := c.isLt; have := j.isLt; omega⟩

end Cert.MaskedLoss

end
-- ==== Proof.RefValue.lean ====
/-
  The reference's result as one function of the argument arrays: the whole-array sum of the masked
  smooth-L1 terms, read index by index.

  With d = x0[k] - x1[k] and n = x2[k] read as a signed integer, element k of the summed array is
      [ |d| >= 1/n ] * ( ((1/2 * d) * d) / (1/2)  if |d| < 1/2,  |d| - 1/4  otherwise ),
  the sum starts from 0, and the reshape of the scalar sum to one element reads that scalar.
-/
import proofs.«112692_j45440753992375_2_alg».proof.Defs
import proofs.«112692_j45440753992375_2_alg».proof.Proof.Gen.ReferenceIdeal.Run
import proofs.«112692_j45440753992375_2_alg».proof.Proof.Gen.ReferenceIdeal.Read
import proofs.«112692_j45440753992375_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Cert.ReferenceIdeal Cert.ReferenceIdeal.Gen

/-- A rank-1 index set is its one coordinate's range … -/
def idxEquiv1 (n : Nat) : (⟨1, ![n]⟩ : Shape).Idx ≃ Fin n where
  toFun i := i 0
  invFun a := ValueIdx.ix1 a
  left_inv i := (ValueIdx.eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 n).symm f]
  rfl

/-- One element of the summed array is the reference's term at that element. -/
theorem v16_apply (x0 x1 : (⟨S16777216, .f32⟩ : BufTy).Contents (Elt Ideal))
    (x2 : (⟨S16777216, .i32⟩ : BufTy).Contents (Elt Ideal)) (j : S16777216.Idx) :
    Read.val_main_v16 (F := Ideal) x0 x1 x2 j = Cert.MaskedLoss.rterm (x0 j) (x1 j) (x2 j) := by
  rw [Read.val_main_v16_apply, Read.val_main_v15_apply, Read.val_main_v14_apply, Read.val_main_v13_apply,
    Read.val_main_v12_apply, Read.val_main_v11_apply, Read.val_main_v10_apply, Read.val_main_v9_apply,
    Read.val_main_v8_apply, Read.val_main_v7_apply, Read.val_main_v6_apply, Read.val_main_v5_apply,
    Read.val_main_v4_apply, Read.val_main_v3_apply, Read.val_main_v2_apply, Read.val_main_v1_apply,
    Read.val_main_v0_apply, Read.val_main_call1_v1_apply, Read.val_main_call1_v0_apply]
  rfl

/-- The reshape of the scalar sum to one element reads the scalar. -/
theorem v18_apply (x0 x1 : (⟨S16777216, .f32⟩ : BufTy).Contents (Elt Ideal))
    (x2 : (⟨S16777216, .i32⟩ : BufTy).Contents (Elt Ideal)) (i : S1.Idx) :
    Read.val_main_v18 (F := Ideal) x0 x1 x2 i = Read.val_main_v17 (F := Ideal) x0 x1 x2 ValueIdx.ix0 := by
  unfold Read.val_main_v18
  refine shapeCast_apply _ shapeCasts_S_S1 i ValueIdx.ix0 ?_
  have h0 : (S_.rowMajor ValueIdx.ix0).val < 1 := (S_.rowMajor ValueIdx.ix0).isLt
  have h1 : (S1.rowMajor i).val < 1 := (S1.rowMajor i).isLt
  omega

theorem ref_value (x0 x1 : (⟨S16777216, .f32⟩ : BufTy).Contents (Elt Ideal))
    (x2 : (⟨S16777216, .i32⟩ : BufTy).Contents (Elt Ideal)) (i : S1.Idx) :
    Cert.ReferenceIdeal.Read.val_main_v18 (F := Ideal) x0 x1 x2 i
      = 0 + ∑ k : Fin 16777216, Cert.MaskedLoss.rterm (x0 (ValueIdx.ix1 k)) (x1 (ValueIdx.ix1 k)) (x2 (ValueIdx.ix1 k)) := by
  rw [v18_apply, Read.val_main_v17_apply, Read.val_main_cst_5_apply]
  refine congrArg₂ (· + ·) ?_ ?_
  · exact Ideal.ofBits_zero_f32
  · rw [sum_idx1]
    exact Finset.sum_congr rfl fun k _ => v16_apply x0 x1 x2 (ValueIdx.ix1 k)

end Cert.ReferenceIdeal.RefValue

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.Finite.lean ====
/-
  The precondition "every element of the first two inputs has absolute value below +∞ and every element of the third
  is nonnegative as a signed integer", read back element by element.

  The precondition is the conjunction of three one-bit words, each the conjunction over all elements of a one-bit
  comparison: |x0 i| < ⊤, |x1 i| < ⊤, and x2 i ≥ 0 (signed). When the whole word is 1 each of the three is 1, so
  every comparison is 1: the elements of x0 and x1 are real numbers, and the elements of x2 read as signed integers
  are nonnegative.
-/
import proofs.«112692_j45440753992375_2_alg».proof.Pre_finite_inputs
import proofs.«112692_j45440753992375_2_alg».proof.Proof.Gen.Pre_finite_inputs
import proofs.«112692_j45440753992375_2_alg».proof.Proof.LibFiniteInputs
import Idealize.ShloMosaic.Lib.ReduceAll
import Idealize.ShloMosaic.Lib.ValueIdx

noncomputable section

namespace Cert.MaskedLoss

open Idealize.ShloMosaic

/-- The scalar shape has one index. -/
instance subsingleton_scalar_idx : Subsingleton Cert.Pre_finite_inputs.S_.Idx :=
  ⟨fun _ _ => funext fun d => d.elim0⟩

theorem inputs_of_pre (x0 x1 : FVec Ideal Cert.Pre_finite_inputs.S16777216 .f32) (x2 : IVec Cert.Pre_finite_inputs.S16777216 32)
    (h : Cert.Pre_finite_inputs.fn (F := Ideal) x0 x1 x2 = fun _ => 1#1) :
    (∀ i, ∃ a : ℝ, x0 i = (a : EReal)) ∧ (∀ i, ∃ b : ℝ, x1 i = (b : EReal)) ∧ (∀ i, 0 ≤ (x2 i).toInt) := by
  have h0 := congrFun h ValueIdx.ix0
  dsimp only [Cert.Pre_finite_inputs.fn] at h0
  obtain ⟨h01, h2⟩ := IntOp.andi_eq_one.1 h0
  obtain ⟨hx0, hx1⟩ := IntOp.andi_eq_one.1 h01
  refine ⟨fun i => ?_, fun i => ?_, fun i => ?_⟩
  · exact Cert.FiniteInputs.all_real_of_all_finite x0 _ (fun _ => Cert.FiniteInputs.ofBits_f32_inf) _ _ _
      ValueIdx.ix0 hx0 i
  · exact Cert.FiniteInputs.all_real_of_all_finite x1 _ (fun _ => Cert.FiniteInputs.ofBits_f32_inf) _ _ _
      ValueIdx.ix0 hx1 i
  · have hi : IntOp.cmpi .sge (x2 i) 0#32 = 1#1 := Host.reduce_andi_all _ _ _ _ ValueIdx.ix0 h2 i
    have hz : (0#32 : BitVec 32).toInt = 0 := by decide
    have hle : (0#32 : BitVec 32).toInt ≤ (x2 i).toInt := IntOp.cmpi_sge.1 hi
    rw [hz] at hle
    exact hle

end Cert.MaskedLoss

end
-- ==== Proof.Pointwise.lean ====
/-
  The kernel's and the reference's per-element terms agree at real inputs.

  With d = a - b real, the difference ↑a - ↑b on the extended reals is ↑d and its absolute value
  max ↑d (-↑d) is ↑|d|. The length n is an integer ≥ 0. If n = 0 the kernel tests 1 ≤ |d| * 0 = 0 and
  the reference tests ⊤ = 1 / 0 ≤ ↑|d|: both fail, and both terms are 0. If n ≥ 1 then
  1 ≤ |d| * n ↔ 1 / n ≤ |d| on the reals, so the outer tests agree; the inner tests are the same
  test; and the inner values agree because ((1/2) * d * d) / (1/2) = d * d.
-/
import proofs.«112692_j45440753992375_2_alg».proof.Proof.Spec
import Idealize.ShloMosaic.PureOps.Ideal.Laws
import Mathlib.Tactic

noncomputable section

namespace Cert.MaskedLoss

open Idealize.ShloMosaic

/-- The pattern 0x3F800000 denotes 1. -/
theorem bits_one : Ideal.ofBits .f32 0x3F800000#32 = ((1 : ℝ) : EReal) := by
  simp [Ideal.ofBits, Ideal.ieee]
  exact_mod_cast (by norm_num : (8388608 : ℝ) * (2 ^ 23)⁻¹ = 1)

/-- The pattern 0x3F000000 denotes 1/2. -/
theorem bits_half : Ideal.ofBits .f32 0x3F000000#32 = ((1 / 2 : ℝ) : EReal) := by
  simp [Ideal.ofBits, Ideal.ieee]
  exact_mod_cast (by norm_num : (8388608 : ℝ) * (2 ^ 24)⁻¹ = 2⁻¹)

/-- The pattern 0x3E800000 denotes 1/4. -/
theorem bits_quarter : Ideal.ofBits .f32 0x3E800000#32 = ((1 / 4 : ℝ) : EReal) := by
  simp [Ideal.ofBits, Ideal.ieee]
  exact_mod_cast (by norm_num : (8388608 : ℝ) * (2 ^ 25)⁻¹ = 4⁻¹)

/-- A selection on the one-bit value of a decidable proposition is an if-then-else on it. -/
theorem select_ofBool {α : Type} (P : Prop) [Decidable P] (x y : α) :
    Scalar.select (BitVec.ofBool (decide P)) x y = if P then x else y := by
  by_cases h : P <;> simp [Scalar.select, h]

/-- The difference of two reals on the extended reals is the real difference. -/
theorem sub_coe (a b : ℝ) : ((a : EReal) - (b : EReal)) = ((a - b : ℝ) : EReal) :=
  (EReal.coe_sub a b).symm

/-- The absolute difference of two reals on the extended reals is the real absolute value. -/
theorem adiff_coe (a b : ℝ) : adiff (a : EReal) (b : EReal) = ((|a - b| : ℝ) : EReal) := by
  show max ((a : EReal) - (b : EReal)) (-((a : EReal) - (b : EReal))) = _
  rw [sub_coe, ← EReal.coe_neg, ← EReal.coe_strictMono.monotone.map_max]
  rfl

/-- ((1/2) * d * d) / (1/2) = d * d. -/
theorem inner_div (d : ℝ) :
    Ideal.div (((1 / 2 : ℝ) : EReal) * (d : EReal) * (d : EReal)) ((1 / 2 : ℝ) : EReal)
      = (d : EReal) * (d : EReal) := by
  rw [Ideal.div_coe (by norm_num : (1 / 2 : ℝ) ≠ 0)]
  rw [← EReal.coe_mul, ← EReal.coe_mul, ← EReal.coe_mul, ← EReal.coe_mul]
  congr 1
  ring

/-- The two threshold tests agree: 1 ≤ x * n ↔ 1 / n ≤ x for a real x and an integer n ≥ 0
    (for n = 0 the quotient is ⊤ and both fail). -/
theorem outer_iff (x : ℝ) (n : ℤ) (hn : 0 ≤ n) :
    (((1 : ℝ) : EReal) ≤ (x : EReal) * ((n : ℝ) : EReal))
      ↔ (Ideal.div ((1 : ℝ) : EReal) ((n : ℝ) : EReal) ≤ (x : EReal)) := by
  rcases hn.eq_or_lt with h0 | hpos
  · subst h0
    have hl : ¬ (((1 : ℝ) : EReal) ≤ (x : EReal) * (((0 : ℤ) : ℝ) : EReal)) := by
      rw [Int.cast_zero, EReal.coe_zero, mul_zero, ← EReal.coe_zero, EReal.coe_le_coe_iff]
      norm_num
    have hr : ¬ (Ideal.div ((1 : ℝ) : EReal) ((((0 : ℤ) : ℝ)) : EReal) ≤ (x : EReal)) := by
      rw [Int.cast_zero, EReal.coe_zero, Ideal.div, if_pos rfl,
        if_pos (by exact_mod_cast (zero_lt_one : (0 : ℝ) < 1)), top_le_iff]
      exact EReal.coe_ne_top x
    exact iff_of_false hl hr
  · have hr : (0 : ℝ) < (n : ℝ) := by exact_mod_cast hpos
    rw [Ideal.div_coe hr.ne', ← EReal.coe_mul, ← EReal.coe_mul, EReal.coe_le_coe_iff,
      EReal.coe_le_coe_iff, one_mul, div_le_iff₀ hr]

theorem kterm_eq_rterm (a b : ℝ) (w : BitVec 32) (hw : 0 ≤ w.toInt) :
    kterm (a : EReal) (b : EReal) w = rterm (a : EReal) (b : EReal) w := by
  unfold kterm rterm
  rw [adiff_coe, sub_coe, bits_one, bits_half, bits_quarter, Ideal.ofBits_zero_f32, inner_div]
  simp only [Ideal.cmp, select_ofBool]
  rw [if_congr (outer_iff |a - b| w.toInt hw) rfl rfl]

end Cert.MaskedLoss

end
-- ==== Proof.KernelPieces.lean ====
/-
  What one grid step leaves behind, as values.

  The body keeps a one-element running total in a scratch cell. At the first block of a core it stores zero
  there; at every block it then stores (total read back) + (sum over the block's rows and lanes of the masked
  terms); at the last block of a core it copies the cell to the core's output element. So after a step the cell
  holds `step x0 x1 x2 previous`, where `previous` is the zero cell at a core's first block and what the step
  before left otherwise, and at a core's last block the output element holds the same value. Here `step` is the
  body's one arithmetic payload and the zero cell its other one; every store covers its whole one-element
  buffer, so reading the stores back gives the payloads themselves.
-/
import proofs.«112692_j45440753992375_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle block of a core: the cell ends at the step applied to what it held. -/
theorem cell_mid (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .i32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : ¬cond0_1 i)
    (x0 : Vec F S8192x128 .f32) (x1 : Vec F S8192x128 .f32) (x2 : Vec F S8192x128 .i32) (xs0 : Vec F S1x1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz3]
  simp only [View.readAt_eq_ld, harg2.read_unread, harg3.read_unread, harg4.read_unread, harg6.read_unread,
    View.ld_unit_zero (S := S8192x128) hz2, View.ld_unit_zero (S := S1x1x1) hz3]

/-- A core's first block: the cell is zeroed first, and the step reads that zero back. -/
theorem cell_first (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .i32) (harg4 : arg4.IsWhole) (arg5 : Memref sig .tc .vmem S1x1x1 .f32) (harg5 : arg5.IsWhole) (arg6 : Memref sig .tc .vmem S1x1x1 .f32) (harg6 : arg6.IsWhole) (hc0 : cond0_0 i) (hc1 : ¬cond0_1 i)
    (x0 : Vec F S8192x128 .f32) (x1 : Vec F S8192x128 .f32) (x2 : Vec F S8192x128 .i32) :
    sout0_A_0 c i arg2 harg2 arg3 harg3 arg4 harg4 arg5 harg5 arg6 harg6 hc0 hc1 x0 x1 x2 = k0_pay2 x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S8192x128) hz2, View.ld_unit_zero (S := S1x1x1) hz3]

/-- A core's last block: the cell again ends at the step applied to what it held, -/
theorem cell_last (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .i32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S8192x128 .f32) (x1 : Vec F S8192x128 .f32) (x2 : Vec F S8192x128 .i32) (xs0 : Vec F S1x1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S8192x128) hz2, View.ld_unit_zero (S := S1x1x1) hz3]

/-- and the core's output element is the cell read back after that store: the same value. -/
theorem out_last (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .i32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S8192x128 .f32) (x1 : Vec F S8192x128 .f32) (x2 : Vec F S8192x128 .i32) (xs0 : Vec F S1x1x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg6.read_unread,
    View.ld_unit_zero (S := S8192x128) hz2, View.ld_unit_zero (S := S1x1x1) hz3]

end Cert.KernelIdeal.Pieces

end
-- ==== Proof.KernelAccum.lean ====
/-
  The running total, grid step by grid step.

  The sixteen grid steps are walked in order, eight per core. The scratch cell after step n is the step's
  payload applied to the step's three input blocks and to the cell's earlier contents: the zero cell when n is
  a core's first step (n = 0 mod 8), what step n - 1 left otherwise. At a core's last step (n = 7 mod 8) the
  core's output element receives the same value. This is an induction on the step, each step falling in one
  of the body's three control cases.
-/
import proofs.«112692_j45440753992375_2_alg».proof.Proof.KernelPieces

set_option maxRecDepth 16384

noncomputable section

namespace Cert.KernelIdeal.Accum

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- The scratch cell after grid step `n`. -/
def cell (c : Dev nD) : (n : ℕ) → n < cfg0.N → Vec F S1x1x1 .f32
  | 0, h => k0_pay2 (iblk m c 0 ⟨0, h⟩) (iblk m c 1 ⟨0, h⟩) (iblk m c 2 ⟨0, h⟩) k0_pay1
  | n + 1, h => k0_pay2 (iblk m c 0 ⟨n + 1, h⟩) (iblk m c 1 ⟨n + 1, h⟩) (iblk m c 2 ⟨n + 1, h⟩)
      (if (n + 1) % 8 = 0 then k0_pay1 else cell c n (Nat.lt_of_succ_lt h))

/-- What the run records for the scratch cell after each step is that value. -/
theorem cell_eq (c : Dev nD) : ∀ (n : ℕ) (h : n < cfg0.N), (outsAt0 m c n h).2 = cell m c n h
  | 0, h => by
    have h1 : ¬(⟨0, h⟩ : Fin cfg0.N).val % 8 = 7 := by
      show ¬(0 % 8 = 7)
      decide
    rw [outsAt0_A m c ⟨0, h⟩ (Nat.zero_mod _) h1]
    dsimp only
    exact cell_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _)
      ((hcond0_0 ⟨0, h⟩).mpr (Nat.zero_mod _)) (fun hh => h1 ((hcond0_1 ⟨0, h⟩).mp hh)) (iblk m c 0 ⟨0, h⟩) (iblk m c 1 ⟨0, h⟩) (iblk m c 2 ⟨0, h⟩)
  | n + 1, h => by
    have hN : cfg0.N = 16 := N_0
    by_cases h0 : (n + 1) % 8 = 0
    · have h1 : ¬(n + 1) % 8 = 7 := by omega
      rw [outsAt0_A m c ⟨n + 1, h⟩ h0 h1]
      dsimp only
      refine (cell_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
        ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)).trans ?_
      simp only [cell, if_pos h0]
    · by_cases h1 : (n + 1) % 8 = 7
      · rw [outsAt0_C m c ⟨n + 1, h⟩ h0 h1]
        dsimp only
        refine (cell_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
          (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩)
          (outsAt0 m c n (Nat.lt_of_succ_lt h)).2).trans ?_
        simp only [cell, if_neg h0]
        rw [cell_eq c n]
      · rw [outsAt0_B m c ⟨n + 1, h⟩ h0 h1]
        dsimp only
        refine (cell_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
          (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩)
          (outsAt0 m c n (Nat.lt_of_succ_lt h)).2).trans ?_
        simp only [cell, if_neg h0]
        rw [cell_eq c n]

/-- At a core's last step the core's output element holds the cell's value. -/
theorem out_eq (c : Dev nD) (n : ℕ) (h : n < cfg0.N) (h7 : n % 8 = 7) : (outsAt0 m c n h).1 = cell m c n h := by
  have hN : cfg0.N = 16 := N_0
  obtain ⟨k, rfl⟩ : ∃ k, n = k + 1 := ⟨n - 1, by omega⟩
  have h0 : ¬(k + 1) % 8 = 0 := by omega
  rw [outsAt0_C m c ⟨k + 1, h⟩ h0 h7]
  dsimp only
  refine (out_last c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _)
    (fun hh => h0 ((hcond0_0 ⟨k + 1, h⟩).mp hh)) ((hcond0_1 ⟨k + 1, h⟩).mpr h7) (iblk m c 0 ⟨k + 1, h⟩) (iblk m c 1 ⟨k + 1, h⟩) (iblk m c 2 ⟨k + 1, h⟩)
    (outsAt0 m c k (Nat.lt_of_succ_lt h)).2).trans ?_
  simp only [cell, if_neg h0]
  rw [cell_eq m c k]

end Cert.KernelIdeal.Accum

end
-- ==== Proof.KernelArray.lean ====
/-
  The kernel's output array after the region.

  The output has one element per core. Core q's element is written back once, after the core's last grid
  step (step 8q + 7), from a one-element block that then holds the running total of the core's eight blocks.
  The block written at step t sits at position t / 8 of the array, so the two write-backs (steps 7 and 15) cover
  the two elements, and the array ends holding, at (q, 0, 0), the running total after step 8q + 7.
-/
import proofs.«112692_j45440753992375_2_alg».proof.Proof.KernelAccum
import Idealize.ShloMosaic.Lib.Pipeline.Value
import Idealize.ShloMosaic.Lib.ValueIdx

set_option maxRecDepth 16384

noncomputable section

namespace Cert.KernelIdeal.Array

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum

variable {F : FTy → Type} [FloatOps F]
variable (m : (ℓ : Loc nD τ sig) → Buf (Elt F) ℓ)

/-- The one-element cell has a single index. -/
instance : Subsingleton S1x1x1.Idx := ⟨fun a b => funext fun d => Fin.ext (by
  match d with
  | ⟨0, _⟩ =>
    have ha : (a 0).val < 1 := (a 0).isLt
    have hb : (b 0).val < 1 := (b 0).isLt
    show (a 0).val = (b 0).val
    omega
  | ⟨1, _⟩ =>
    have ha : (a 1).val < 1 := (a 1).isLt
    have hb : (b 1).val < 1 := (b 1).isLt
    show (a 1).val = (b 1).val
    omega
  | ⟨2, _⟩ =>
    have ha : (a 2).val < 1 := (a 2).isLt
    have hb : (b 2).val < 1 := (b 2).isLt
    show (a 2).val = (b 2).val
    omega)⟩

/-- The cell's value depends on the step number only. -/
theorem cell_congr (c : Dev nD) {n n' : ℕ} (e : n = n') (h : n < cfg0.N) (h' : n' < cfg0.N) (y y' : S1x1x1.Idx) :
    cell m c n h y = cell m c n' h' y' := by
  subst e
  exact congrArg _ (Subsingleton.elim _ _)

/-- The output block written at step t sits at position t / 8 along the core axis. -/
theorem block_index : ∀ t : Fin cfg0.N, win0_3.index t (0 : Fin 3) = t.val / 8 :=
  (by decide +kernel : ∀ t : Fin grid0.N, win0_3.index t (0 : Fin 3) = t.val / 8)

/-- The array the region leaves: core q's element is the running total after step 8q + 7. -/
def result (c : Dev nD) : Vec F S2x1x1 .f32 := fun i =>
  cell m c ((i 0).val * 8 + 7) (by have h2 : (i 0).val < 2 := (i 0).isLt; have hN : cfg0.N = 16 := N_0; omega)
    (ix3 (0 : Fin 1) (0 : Fin 1) (0 : Fin 1))

/-- Each write-back writes the corresponding block of that array. -/
theorem flushed_eq (c : Dev nD) (t : Fin cfg0.N) (hf : (cfg0.win 3).flush t = true) :
    (dats m 0 c).flushed 3 t = ((cfg0.win 3).blk t).view.read (Elt F) (result m c) := by
  have h7 : t.val % 8 = 7 := (flush0_3 t).mp hf
  show (cfg0.win 3).cut (grid0.coords t) ((dats m 0 c).after 3 t) = _
  rw [after0_3, out_eq m c t.val t.isLt h7]
  funext y
  rw [View.read_apply]
  show cell m c t.val t.isLt y = result m c (((cfg0.win 3).blk t).view.emb y)
  unfold result
  refine cell_congr m c ?_ _ _ _ _
  show t.val = (win0_3.index t 0 * 1 + 1 * (y 0).val) * 8 + 7
  have hy : (y 0).val < 1 := (y 0).isLt
  rw [block_index t]
  omega

/-- The two write-backs cover the array, so it ends holding `result`. -/
theorem final (c : Dev nD) : (dats m 0 c).arrAt 3 cfg0.N = result m c :=
  (dats m 0 c).arrAt_eq_of_cover 3 (result m c) (flushed_eq m c) fun i => by
    have h0 : (i 0 : Nat) < 2 := (i 0).isLt
    have h1 : (i 1 : Nat) < 1 := (i 1).isLt
    have h2 : (i 2 : Nat) < 1 := (i 2).isLt
    rcases (by omega : (i 0 : Nat) = 0 ∨ (i 0 : Nat) = 1) with hq | hq
    ·
      refine ⟨t0_7, (flush0_3 t0_7).mpr rfl, ?_⟩
      show i ∈ ((View.whole main_v3).slice (win0_3.rect t0_7)).set
      rw [View.set_slice_whole, Rect.mem_set_unit]
      intro a
      match a with
      | ⟨0, _⟩ =>
        show win0_3.index t0_7 0 * win0_3.size 0 ≤ (i 0 : Nat) ∧ (i 0 : Nat) < win0_3.index t0_7 0 * win0_3.size 0 + win0_3.xsize (grid0.coords t0_7) 0
        rw [show win0_3.index t0_7 0 * win0_3.size 0 = 0 from by decide +kernel, show win0_3.xsize (grid0.coords t0_7) 0 = 1 from by decide +kernel]
        omega
      | ⟨1, _⟩ =>
        show win0_3.index t0_7 1 * win0_3.size 1 ≤ (i 1 : Nat) ∧ (i 1 : Nat) < win0_3.index t0_7 1 * win0_3.size 1 + win0_3.xsize (grid0.coords t0_7) 1
        rw [show win0_3.index t0_7 1 * win0_3.size 1 = 0 from by decide +kernel, show win0_3.xsize (grid0.coords t0_7) 1 = 1 from by decide +kernel]
        omega
      | ⟨2, _⟩ =>
        show win0_3.index t0_7 2 * win0_3.size 2 ≤ (i 2 : Nat) ∧ (i 2 : Nat) < win0_3.index t0_7 2 * win0_3.size 2 + win0_3.xsize (grid0.coords t0_7) 2
        rw [show win0_3.index t0_7 2 * win0_3.size 2 = 0 from by decide +kernel, show win0_3.xsize (grid0.coords t0_7) 2 = 1 from by decide +kernel]
        omega
    ·
      refine ⟨t0_15, (flush0_3 t0_15).mpr rfl, ?_⟩
      show i ∈ ((View.whole main_v3).slice (win0_3.rect t0_15)).set
      rw [View.set_slice_whole, Rect.mem_set_unit]
      intro a
      match a with
      | ⟨0, _⟩ =>
        show win0_3.index t0_15 0 * win0_3.size 0 ≤ (i 0 : Nat) ∧ (i 0 : Nat) < win0_3.index t0_15 0 * win0_3.size 0 + win0_3.xsize (grid0.coords t0_15) 0
        rw [show win0_3.index t0_15 0 * win0_3.size 0 = 1 from by decide +kernel, show win0_3.xsize (grid0.coords t0_15) 0 = 1 from by decide +kernel]
        omega
      | ⟨1, _⟩ =>
        show win0_3.index t0_15 1 * win0_3.size 1 ≤ (i 1 : Nat) ∧ (i 1 : Nat) < win0_3.index t0_15 1 * win0_3.size 1 + win0_3.xsize (grid0.coords t0_15) 1
        rw [show win0_3.index t0_15 1 * win0_3.size 1 = 0 from by decide +kernel, show win0_3.xsize (grid0.coords t0_15) 1 = 1 from by decide +kernel]
        omega
      | ⟨2, _⟩ =>
        show win0_3.index t0_15 2 * win0_3.size 2 ≤ (i 2 : Nat) ∧ (i 2 : Nat) < win0_3.index t0_15 2 * win0_3.size 2 + win0_3.xsize (grid0.coords t0_15) 2
        rw [show win0_3.index t0_15 2 * win0_3.size 2 = 0 from by decide +kernel, show win0_3.xsize (grid0.coords t0_15) 2 = 1 from by decide +kernel]
        omega

end Cert.KernelIdeal.Array

end
-- ==== Proof.KernelTail.lean ====
/-
  The program's result from the kernel's per-core partial totals.

  After the kernel the program forms the constant 0, adds to it every element of the kernel's output array (extents
  2, 1, 1: one partial total per core), and reshapes that scalar to one element. So the result is
  0 + (partial of core 0) + (partial of core 1).
-/
import proofs.«112692_j45440753992375_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open scoped BigOperators

namespace Cert.KernelIdeal.Tail

open Idealize.ShloMosaic Idealize.ShloMosaic.TcCoe Idealize.SL.Sem Idealize.ShloMosaic.ValueIdx
open Cert.KernelIdeal Cert.KernelIdeal.Gen

section Generic
variable {F : FTy → Type} [FloatOps F]
variable (m : (ℓ : Loc nD τ sig) → Buf (Elt F) ℓ)

/-- After the kernel, the buffer of its output window holds that window's array as the kernel leaves it. -/
theorem arr3_eq (c : Dev nD) :
    Pipeline.withArrays (cfgs 0).spec c (V0 m c) (fun w => (dats m 0 c).arrAt w (cfgs 0).N) (Proc.devRef .tc main_v3)
      = (dats m 0 c).arrAt 3 cfg0.N :=
  Pipeline.withArrays_arr spec0 launch0.win.arr_inj c _ _ 3

theorem tail_eq (c : Dev nD) :
    Pipeline.afterTail₀ cfgs (dats m) 0 (V0 m) [hostOps1] c main_v5
      = shapeCast S1 (Host.reduceAdd ((dats m 0 c).arrAt 3 cfg0.N : Vec F S2x1x1 .f32) (constant S_ .f32 0x00000000#32) reducesTo_S2x1x1_S_d0_1_2 h_S_) shapeCasts_S_S1 := by
  unfold Pipeline.afterTail₀
  show StableHlo.after hostOps1 _ (Proc.devRef .tc main_v5) = _
  after_results
  rw [arr3_eq]
  rfl

end Generic

/-- An index set with extents 2, 1, 1 is its first coordinate's range … -/
def idxEquiv211 : S2x1x1.Idx ≃ Fin 2 where
  toFun i := (i 0 : Fin 2)
  invFun q := ix3 q (0 : Fin 1) (0 : Fin 1)
  left_inv i := by
    have h1 : (i 1).val < 1 := (i 1).isLt
    have h2 : (i 2).val < 1 := (i 2).isLt
    funext a
    match a with
    | ⟨0, _⟩ => rfl
    | ⟨1, _⟩ => exact Fin.ext (by show 0 = (i 1).val; omega)
    | ⟨2, _⟩ => exact Fin.ext (by show 0 = (i 2).val; omega)
  right_inv _ := rfl

/-- … so a sum over it is the sum over that coordinate. -/
theorem sum_idx211 {M : Type*} [AddCommMonoid M] (f : S2x1x1.Idx → M) :
    ∑ i, f i = ∑ q : Fin 2, f (ix3 q (0 : Fin 1) (0 : Fin 1)) := by
  rw [← Equiv.sum_comp idxEquiv211.symm f]
  rfl

theorem tail_apply (A : FVec Ideal S2x1x1 .f32) (i : S1.Idx) :
    shapeCast S1 (Host.reduceAdd (F := Ideal) A (constant (F := Ideal) S_ .f32 0x00000000#32) reducesTo_S2x1x1_S_d0_1_2 h_S_) shapeCasts_S_S1 i
      = 0 + ∑ q : Fin 2, A (ix3 q (0 : Fin 1) (0 : Fin 1)) := by
  -- the reshape of the scalar to one element reads the scalar
  have hcast : shapeCast S1 (Host.reduceAdd (F := Ideal) A (constant (F := Ideal) S_ .f32 0x00000000#32) reducesTo_S2x1x1_S_d0_1_2 h_S_) shapeCasts_S_S1 i
      = Host.reduceAdd (F := Ideal) A (constant (F := Ideal) S_ .f32 0x00000000#32) reducesTo_S2x1x1_S_d0_1_2 h_S_ ix0 := by
    refine shapeCast_apply _ shapeCasts_S_S1 i ix0 ?_
    have h0 : (S_.rowMajor ix0).val < 1 := (S_.rowMajor ix0).isLt
    have h1 : (S1.rowMajor i).val < 1 := (S1.rowMajor i).isLt
    omega
  rw [hcast]
  -- the sum over all three axes is the initial value plus the sum over every index
  simp only [Host.reduceAdd, Ideal.hostReduceAdd_def]
  rw [Ideal.hostReduceAdd_total reducesTo_S2x1x1_S_d0_1_2 (fun b => b.elim0) A _ ix0, sum_idx211]
  -- the initial value is the zero pattern
  show Ideal.ofBits .f32 0x00000000#32 + _ = _
  rw [Ideal.ofBits_zero_f32]

end Cert.KernelIdeal.Tail

end
-- ==== Proof.KernelStep.lean ====
/-
  One grid step's arithmetic on the extended reals.

  The body's payload adds, to the running total it read back, the sum over the block's 8192 rows of the sum
  over each row's 128 lanes of the masked term of that element. The row sums and the sum of the row sums are
  two reductions with a reshape between them; the sum of all row sums is the sum over the whole block
  (every element lies in exactly one row), and a sum over a two-axis index set is the double sum over its
  coordinates. The three reshapes between one-element shapes move nothing.
-/
import proofs.«112692_j45440753992375_2_alg».proof.Proof.Gen.KernelIdeal.Skeleton
import proofs.«112692_j45440753992375_2_alg».proof.Proof.Spec
import Idealize.ShloMosaic.Lib.ValueIdx
import Idealize.ShloMosaic.Lib.Pipeline.Value
import Idealize.ShloMosaic.PureOps.Ideal.Laws

noncomputable section

namespace Cert.KernelIdeal.Step

open Idealize.ShloMosaic Idealize.ShloMosaic.ValueIdx
open Cert.KernelIdeal Cert.KernelIdeal.Gen Cert.MaskedLoss

/-- A reshape out of a shape with a single index reads that one element, whichever index it is asked at. -/
theorem cast_single {s t : Shape} {α : Type} [Subsingleton s.Idx] (v : s.Idx → α) (h : s.ShapeCasts t) (j : t.Idx)
    (k : s.Idx) : shapeCast t v h j = v k :=
  congrArg v (Subsingleton.elim _ _)

instance : Subsingleton S1.Idx := ⟨fun a b => funext fun d => Fin.ext (by
  match d with
  | ⟨0, _⟩ =>
    have ha : (a 0).val < 1 := (a 0).isLt
    have hb : (b 0).val < 1 := (b 0).isLt
    show (a 0).val = (b 0).val
    omega)⟩

instance : Subsingleton S1x1.Idx := ⟨fun a b => funext fun d => Fin.ext (by
  match d with
  | ⟨0, _⟩ =>
    have ha : (a 0).val < 1 := (a 0).isLt
    have hb : (b 0).val < 1 := (b 0).isLt
    show (a 0).val = (b 0).val
    omega
  | ⟨1, _⟩ =>
    have ha : (a 1).val < 1 := (a 1).isLt
    have hb : (b 1).val < 1 := (b 1).isLt
    show (a 1).val = (b 1).val
    omega)⟩

/-- The block's masked terms as one vector: what the payload reduces. -/
def terms (x0 x1 : FVec Ideal S8192x128 .f32) (x2 : IVec S8192x128 32) : FVec Ideal S8192x128 .f32 :=
  select (cmpf .oge (mulf (absf (subf x0 x1)) (sitofp .f32 x2)) (broadcast S8192x128 (Scalar.ofBits .f32 0x3F800000#32)))
    (select (cmpf .olt (absf (subf x0 x1)) (broadcast S8192x128 (Scalar.ofBits .f32 0x3F000000#32)))
      (mulf (subf x0 x1) (subf x0 x1))
      (subf (absf (subf x0 x1)) (broadcast S8192x128 (Scalar.ofBits .f32 0x3E800000#32))))
    (broadcast S8192x128 (Scalar.ofBits .f32 0x00000000#32))

/-- Element by element it is the kernel's term of that element. -/
theorem terms_apply (x0 x1 : FVec Ideal S8192x128 .f32) (x2 : IVec S8192x128 32) (i : S8192x128.Idx) :
    terms x0 x1 x2 i = kterm (x0 i) (x1 i) (x2 i) := rfl

/-- Row sums, then the sum of the row sums: the sum over the block, by coordinates. -/
theorem block_total (v : FVec Ideal S8192x128 .f32)
    (h1 : S8192x128.Reduces [1] S8192) (hφ1 : FKind.Formats .f32) (ha1 : (0x00000000#32 : BitVec 32) = FKind.add.neutral .f32 hφ1)
    (hc : S8192.ShapeCasts S8192x1)
    (h2 : S8192x1.Reduces [0] S1) (hφ2 : FKind.Formats .f32) (ha2 : (0x00000000#32 : BitVec 32) = FKind.add.neutral .f32 hφ2)
    (j : S1.Idx) :
    multiReduction .add [0] S1 (shapeCast S8192x1 (multiReduction .add [1] S8192 v 0x00000000#32 h1 hφ1 ha1) hc)
        0x00000000#32 h2 hφ2 ha2 j
      = ∑ r : Fin 8192, ∑ l : Fin 128, v (ix2 r l) := by
  show Ideal.reduceAdd h2 (shapeCast S8192x1 (Ideal.reduceAdd h1 v) hc) j = _
  rw [Ideal.reduceAdd_total h2 (fun b => by match b with | ⟨0, _⟩ => rfl) _ j]
  show ∑ i : S8192x1.Idx, Ideal.reduceAdd h1 v (Shape.reshapeEquiv hc i) = _
  rw [Equiv.sum_comp (Shape.reshapeEquiv hc) (Ideal.reduceAdd h1 v)]
  unfold Ideal.reduceAdd
  rw [Finset.sum_fiberwise]
  exact sum_idx2 v

/-- THE STEP: the payload at the cell's one index is the total read back plus the block's sum of terms. -/
theorem step_apply (x0 x1 : FVec Ideal S8192x128 .f32) (x2 : IVec S8192x128 32) (acc : FVec Ideal S1x1x1 .f32)
    (j : S1x1x1.Idx) :
    k0_pay2 (F := Ideal) x0 x1 x2 acc j
      = acc j + ∑ r : Fin 8192, ∑ l : Fin 128, kterm (x0 (ix2 r l)) (x1 (ix2 r l)) (x2 (ix2 r l)) := by
  unfold k0_pay2
  simp only [shapeCast_self]
  show acc j + _ = _
  congr 1
  refine (cast_single _ _ j (ix2 (0 : Fin 1) (0 : Fin 1))).trans ?_
  refine (cast_single _ _ _ (ix1 (0 : Fin 1))).trans ?_
  exact (block_total (terms x0 x1 x2) _ _ _ _ _ _ _ _).trans
    (Finset.sum_congr rfl fun r _ => Finset.sum_congr rfl fun l _ => terms_apply x0 x1 x2 (ix2 r l))

/-- The zero cell is zero. -/
theorem zero_apply (j : S1x1x1.Idx) : k0_pay1 (F := Ideal) j = 0 := by
  unfold k0_pay1
  simp only [shapeCast_self]
  show Ideal.ofBits .f32 0x00000000#32 = 0
  exact Ideal.ofBits_zero_f32

end Cert.KernelIdeal.Step

end
-- ==== Proof.KernelTotal.lean ====
/-
  The running total as a sum of block sums.

  One grid step adds, to what the scratch cell held, the sum of the masked terms over the step's block. The
  cell is emptied at a core's first step (n = 0 mod 8), so after step n it holds the block sums of the steps
  n - n mod 8, ..., n: an induction on n following the recursion of the cell. At a core's last step
  (n = 8 q + 7) these are the core's eight block sums.
-/
import proofs.«112692_j45440753992375_2_alg».proof.Proof.KernelAccum
import proofs.«112692_j45440753992375_2_alg».proof.Proof.KernelStep
import Mathlib.Tactic

noncomputable section

namespace Cert.KernelIdeal.Total

open Idealize.ShloMosaic Idealize.ShloMosaic.TcCoe Idealize.SL.Sem Idealize.ShloMosaic.ValueIdx
open Cert.KernelIdeal Cert.KernelIdeal.Gen Cert.MaskedLoss

variable (m : (ℓ : Loc nD τ sig) → Buf (Elt Ideal) ℓ)

/-- The sum of the masked terms over grid step t's block. -/
def blockSum (c : Dev nD) (t : Fin cfg0.N) : EReal :=
  ∑ r : Fin 8192, ∑ l : Fin 128,
    kterm ((iblk m c 0 t : Vec Ideal S8192x128 .f32) (ix2 r l)) ((iblk m c 1 t : Vec Ideal S8192x128 .f32) (ix2 r l)) ((iblk m c 2 t : Vec Ideal S8192x128 .i32) (ix2 r l))

/-- The same on plain step numbers, zero past the grid. -/
def blockSumN (c : Dev nD) (n : ℕ) : EReal := if h : n < cfg0.N then blockSum m c ⟨n, h⟩ else 0

/-- Inside the grid the plain-number form is the block sum. -/
theorem blockSumN_of_lt (c : Dev nD) (n : ℕ) (h : n < cfg0.N) : blockSumN m c n = blockSum m c ⟨n, h⟩ :=
  dif_pos h

/-- One step: the payload adds the step's block sum to the total it is given. -/
theorem pay_apply (c : Dev nD) (n : ℕ) (h : n < cfg0.N) (acc : Vec Ideal S1x1x1 .f32) (j : S1x1x1.Idx) :
    k0_pay2 (F := Ideal) (iblk m c 0 ⟨n, h⟩) (iblk m c 1 ⟨n, h⟩) (iblk m c 2 ⟨n, h⟩) acc j
      = acc j + blockSum m c ⟨n, h⟩ :=
  Step.step_apply (iblk m c 0 ⟨n, h⟩) (iblk m c 1 ⟨n, h⟩) (iblk m c 2 ⟨n, h⟩) acc j

/-- The cell after the very first step. -/
theorem cell_zero (c : Dev nD) (h : 0 < cfg0.N) :
    Accum.cell (F := Ideal) m c 0 h
      = k0_pay2 (F := Ideal) (iblk m c 0 ⟨0, h⟩) (iblk m c 1 ⟨0, h⟩) (iblk m c 2 ⟨0, h⟩) (k0_pay1 (F := Ideal)) := by
  simp only [Accum.cell]

/-- The cell after a later step that opens a core's walk. -/
theorem cell_succ_first (c : Dev nD) (n : ℕ) (h : n + 1 < cfg0.N) (h0 : (n + 1) % 8 = 0) :
    Accum.cell (F := Ideal) m c (n + 1) h
      = k0_pay2 (F := Ideal) (iblk m c 0 ⟨n + 1, h⟩) (iblk m c 1 ⟨n + 1, h⟩) (iblk m c 2 ⟨n + 1, h⟩) (k0_pay1 (F := Ideal)) := by
  simp only [Accum.cell, if_pos h0]

/-- The cell after a later step inside a core's walk. -/
theorem cell_succ_next (c : Dev nD) (n : ℕ) (h : n + 1 < cfg0.N) (h0 : ¬(n + 1) % 8 = 0) :
    Accum.cell (F := Ideal) m c (n + 1) h
      = k0_pay2 (F := Ideal) (iblk m c 0 ⟨n + 1, h⟩) (iblk m c 1 ⟨n + 1, h⟩) (iblk m c 2 ⟨n + 1, h⟩)
          (Accum.cell (F := Ideal) m c n (Nat.lt_of_succ_lt h)) := by
  simp only [Accum.cell, if_neg h0]

/-- After step n the cell holds the block sums of the steps n - n mod 8, ..., n. -/
theorem cell_apply (c : Dev nD) : ∀ (n : ℕ) (h : n < cfg0.N) (j : S1x1x1.Idx),
    Accum.cell (F := Ideal) m c n h j = ∑ s ∈ Finset.range (n % 8 + 1), blockSumN m c (n - n % 8 + s)
  | 0, h, j => by
    rw [cell_zero, pay_apply, Step.zero_apply, zero_add]
    show _ = ∑ s ∈ Finset.range 1, blockSumN m c (0 + s)
    rw [Finset.sum_range_one, Nat.add_zero, blockSumN_of_lt m c 0 h]
  | n + 1, h, j => by
    by_cases h0 : (n + 1) % 8 = 0
    · rw [cell_succ_first m c n h h0, pay_apply, Step.zero_apply, zero_add, h0]
      show _ = ∑ s ∈ Finset.range 1, blockSumN m c (n + 1 - 0 + s)
      rw [Finset.sum_range_one]
      exact (blockSumN_of_lt m c (n + 1) h).symm
    · have e1 : (n + 1) % 8 = n % 8 + 1 := by omega
      have e2 : n + 1 - (n % 8 + 1) = n - n % 8 := by omega
      have e3 : n - n % 8 + (n % 8 + 1) = n + 1 := by omega
      rw [cell_succ_next m c n h h0, pay_apply, cell_apply c n (Nat.lt_of_succ_lt h) j, e1, e2,
        Finset.sum_range_succ _ (n % 8 + 1), e3, blockSumN_of_lt m c (n + 1) h]

/-- At a core's last step the cell holds the core's eight block sums. -/
theorem cell_core_total (c : Dev nD) (q : Fin 2) (h : q.val * 8 + 7 < cfg0.N) (j : S1x1x1.Idx) :
    Accum.cell (F := Ideal) m c (q.val * 8 + 7) h j
      = ∑ s : Fin 8, blockSum m c ⟨q.val * 8 + s.val, by have := s.isLt; have := q.isLt; have : cfg0.N = 16 := N_0; omega⟩ := by
  have hN : cfg0.N = 16 := N_0
  have e1 : (q.val * 8 + 7) % 8 = 7 := by omega
  have e2 : q.val * 8 + 7 - 7 = q.val * 8 := by omega
  rw [cell_apply m c _ h j, e1, e2]
  show ∑ s ∈ Finset.range 8, _ = _
  rw [Finset.sum_range]
  refine Finset.sum_congr rfl fun s _ => ?_
  exact blockSumN_of_lt m c _ _

end Cert.KernelIdeal.Total

end
-- ==== Proof.KernelInputs.lean ====
/-
  The kernel's input blocks, read element by element off the flat argument arrays.

  Each flat argument of 16777216 elements is first reshaped to 131072 rows of 128 lanes, so element (R, l) of the
  reshaped array is flat element R * 128 + l. At grid point t each input window reads the block of 8192 rows starting
  at row t * 8192 of its reshaped array. So element (r, l) of the block at point t is the reshaped array's element
  (t * 8192 + r, l), the flat element (t * 8192 + r) * 128 + l.
-/
import proofs.«112692_j45440753992375_2_alg».proof.Proof.Gen.KernelIdeal.Frame
import proofs.«112692_j45440753992375_2_alg».proof.Proof.Spec
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.Inputs

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

theorem point_lt (t : Fin cfg0.N) : t.val < 16 := lt_of_lt_of_eq t.isLt (show cfg0.N = 16 from N_0)

/-- A reshape of a flat array to rows of 128 lanes, read at (R, l), is the flat element R * 128 + l. -/
theorem reshape_apply {α : Type} (x : S16777216.Idx → α) (R : Fin 131072) (l : Fin 128) (k : Fin 16777216)
    (hk : k.val = R.val * 128 + l.val) :
    shapeCast S131072x128 x shapeCasts_S16777216_S131072x128 (ix2 R l) = x (ix1 k) := by
  refine shapeCast_apply x shapeCasts_S16777216_S131072x128 (ix2 R l) (ix1 k) ?_
  rw [Shape.rowMajor_val_one, Shape.rowMajor_val_two]
  show k.val = R.val * 128 + l.val
  exact hk

/-- The first reshaped array, as the region finds it, is the reshape of the first flat argument. -/
theorem V_v0 (c : Dev nD) :
    (V m c main_v0 : Vec F S131072x128 .f32)
      = shapeCast S131072x128 (m ((c : Thread nD τ).loc main_arg0)) shapeCasts_S16777216_S131072x128 := by
  show StableHlo.after hostOps0 (fun b => m (c, b)) (Proc.devRef .tc main_v0) = _
  after_results
  rfl

/-- The index map of the first window: block number t along the rows, block 0 along the lanes. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Element (r, l) of the first window's block at point t is element (t * 8192 + r, l) of its reshaped array. -/
theorem iblk0_row (c : Dev nD) (t : Fin cfg0.N) (r : Fin 8192) (l : Fin 128) (R : Fin 131072)
    (hR : R.val = t.val * 8192 + r.val) :
    (iblk m c 0 t : Vec F S8192x128 .f32) (ix2 r l) = (V m c main_v0 : Vec F S131072x128 .f32) (ix2 R l) := by
  obtain ⟨e0, e1⟩ := idx_facts0 t
  unfold iblk
  rw [View.read_apply]
  show V m c main_v0 (((cfg0.win 0).blk t).view.emb (ix2 r l)) = V m c main_v0 (ix2 R l)
  refine congrArg (V m c main_v0) ?_
  funext a
  apply Fin.ext
  match a with
  | ⟨0, _⟩ => show win0_0.index t (0 : Fin 2) * 8192 + 1 * r.val = R.val; rw [e0, hR]; omega
  | ⟨1, _⟩ => show win0_0.index t (1 : Fin 2) * 128 + 1 * l.val = l.val; rw [e1]; omega

theorem iblk0_apply (c : Dev nD) (t : Fin cfg0.N) (r : Fin 8192) (l : Fin 128) :
    (iblk m c 0 t : Vec F S8192x128 .f32) (ix2 r l)
      = (m ((c : Thread nD τ).loc main_arg0) : Vec F S16777216 .f32) (ix1 (Cert.MaskedLoss.pos ⟨t.val, point_lt t⟩ r l)) := by
  have ht : t.val < 16 := point_lt t
  have hr : r.val < 8192 := r.isLt
  rw [iblk0_row m c t r l ⟨t.val * 8192 + r.val, by omega⟩ rfl, V_v0]
  exact reshape_apply _ _ _ _ rfl

/-- The second reshaped array, as the region finds it, is the reshape of the second flat argument. -/
theorem V_v1 (c : Dev nD) :
    (V m c main_v1 : Vec F S131072x128 .f32)
      = shapeCast S131072x128 (m ((c : Thread nD τ).loc main_arg1)) shapeCasts_S16777216_S131072x128 := by
  show StableHlo.after hostOps0 (fun b => m (c, b)) (Proc.devRef .tc main_v1) = _
  after_results
  rfl

/-- The index map of the second window: block number t along the rows, block 0 along the lanes. -/
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Element (r, l) of the second window's block at point t is element (t * 8192 + r, l) of its reshaped array. -/
theorem iblk1_row (c : Dev nD) (t : Fin cfg0.N) (r : Fin 8192) (l : Fin 128) (R : Fin 131072)
    (hR : R.val = t.val * 8192 + r.val) :
    (iblk m c 1 t : Vec F S8192x128 .f32) (ix2 r l) = (V m c main_v1 : Vec F S131072x128 .f32) (ix2 R l) := by
  obtain ⟨e0, e1⟩ := idx_facts1 t
  unfold iblk
  rw [View.read_apply]
  show V m c main_v1 (((cfg0.win 1).blk t).view.emb (ix2 r l)) = V m c main_v1 (ix2 R l)
  refine congrArg (V m c main_v1) ?_
  funext a
  apply Fin.ext
  match a with
  | ⟨0, _⟩ => show win0_1.index t (0 : Fin 2) * 8192 + 1 * r.val = R.val; rw [e0, hR]; omega
  | ⟨1, _⟩ => show win0_1.index t (1 : Fin 2) * 128 + 1 * l.val = l.val; rw [e1]; omega

theorem iblk1_apply (c : Dev nD) (t : Fin cfg0.N) (r : Fin 8192) (l : Fin 128) :
    (iblk m c 1 t : Vec F S8192x128 .f32) (ix2 r l)
      = (m ((c : Thread nD τ).loc main_arg1) : Vec F S16777216 .f32) (ix1 (Cert.MaskedLoss.pos ⟨t.val, point_lt t⟩ r l)) := by
  have ht : t.val < 16 := point_lt t
  have hr : r.val < 8192 := r.isLt
  rw [iblk1_row m c t r l ⟨t.val * 8192 + r.val, by omega⟩ rfl, V_v1]
  exact reshape_apply _ _ _ _ rfl

/-- The third reshaped array, as the region finds it, is the reshape of the third flat argument. -/
theorem V_v2 (c : Dev nD) :
    (V m c main_v2 : Vec F S131072x128 .i32)
      = shapeCast S131072x128 (m ((c : Thread nD τ).loc main_arg2)) shapeCasts_S16777216_S131072x128 := by
  show StableHlo.after hostOps0 (fun b => m (c, b)) (Proc.devRef .tc main_v2) = _
  after_results
  rfl

/-- The index map of the third window: block number t along the rows, block 0 along the lanes. -/
theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Element (r, l) of the third window's block at point t is element (t * 8192 + r, l) of its reshaped array. -/
theorem iblk2_row (c : Dev nD) (t : Fin cfg0.N) (r : Fin 8192) (l : Fin 128) (R : Fin 131072)
    (hR : R.val = t.val * 8192 + r.val) :
    (iblk m c 2 t : Vec F S8192x128 .i32) (ix2 r l) = (V m c main_v2 : Vec F S131072x128 .i32) (ix2 R l) := by
  obtain ⟨e0, e1⟩ := idx_facts2 t
  unfold iblk
  rw [View.read_apply]
  show V m c main_v2 (((cfg0.win 2).blk t).view.emb (ix2 r l)) = V m c main_v2 (ix2 R l)
  refine congrArg (V m c main_v2) ?_
  funext a
  apply Fin.ext
  match a with
  | ⟨0, _⟩ => show win0_2.index t (0 : Fin 2) * 8192 + 1 * r.val = R.val; rw [e0, hR]; omega
  | ⟨1, _⟩ => show win0_2.index t (1 : Fin 2) * 128 + 1 * l.val = l.val; rw [e1]; omega

theorem iblk2_apply (c : Dev nD) (t : Fin cfg0.N) (r : Fin 8192) (l : Fin 128) :
    (iblk m c 2 t : Vec F S8192x128 .i32) (ix2 r l)
      = (m ((c : Thread nD τ).loc main_arg2) : Vec F S16777216 .i32) (ix1 (Cert.MaskedLoss.pos ⟨t.val, point_lt t⟩ r l)) := by
  have ht : t.val < 16 := point_lt t
  have hr : r.val < 8192 := r.isLt
  rw [iblk2_row m c t r l ⟨t.val * 8192 + r.val, by omega⟩ rfl, V_v2]
  exact reshape_apply _ _ _ _ rfl

end Cert.KernelIdeal.Inputs

end
-- ==== Proof.SumLayout.lean ====
/-
  Re-indexing a finite sum along a row-major layout.

  Every k < a*b is uniquely i*b + j with i < a and j < b, so a sum over Fin (a*b) is the iterated
  sum over Fin a and Fin b. Used twice, every k < 16*8192*128 is uniquely (t*8192 + r)*128 + l, and
  used once, every t < 16 is uniquely c*8 + j.
-/
import proofs.«112692_j45440753992375_2_alg».proof.Proof.Spec
import Mathlib.Tactic

namespace Cert.MaskedLoss

open Finset BigOperators

/-- A sum over `Fin n` with `n = a * b` is the iterated sum over `Fin a` and `Fin b`, along any map
    `g` whose value at `(i, j)` is `i * b + j`. -/
theorem sum_fin_mul {M : Type*} [AddCommMonoid M] {n : ℕ} (a b : ℕ) (hn : n = a * b) (f : Fin n → M)
    (g : Fin a → Fin b → Fin n) (hg : ∀ i j, (g i j).val = i.val * b + j.val) :
    ∑ k, f k = ∑ i : Fin a, ∑ j : Fin b, f (g i j) := by
  subst hn
  rw [← finProdFinEquiv.sum_comp, Fintype.sum_prod_type]
  refine Finset.sum_congr rfl fun i _ => Finset.sum_congr rfl fun j _ => ?_
  congr 1
  apply Fin.ext
  rw [hg]
  show j.val + b * i.val = i.val * b + j.val
  rw [Nat.mul_comm, Nat.add_comm]

theorem sum_pos {M : Type*} [AddCommMonoid M] (f : Fin 16777216 → M) :
    ∑ k, f k = ∑ t : Fin 16, ∑ r : Fin 8192, ∑ l : Fin 128, f (pos t r l) := by
  -- first split off the lane: k = i * 128 + l with i < 16 * 8192
  have h1 := sum_fin_mul (n := 16777216) 131072 128 (by norm_num) f
    (fun i l => ⟨i.val * 128 + l.val, by have := i.isLt; have := l.isLt; omega⟩) (fun _ _ => rfl)
  -- then split the row index: i = t * 8192 + r
  have h2 := sum_fin_mul (n := 131072) 16 8192 (by norm_num)
    (fun i : Fin 131072 => ∑ l : Fin 128,
      f ⟨i.val * 128 + l.val, by have := i.isLt; have := l.isLt; omega⟩)
    (fun t r => ⟨t.val * 8192 + r.val, by have := t.isLt; have := r.isLt; omega⟩) (fun _ _ => rfl)
  rw [h1, h2]
  rfl

theorem sum_pt {M : Type*} [AddCommMonoid M] (g : Fin 16 → M) :
    ∑ t, g t = ∑ c : Fin 2, ∑ j : Fin 8, g (pt c j) :=
  sum_fin_mul (n := 16) 2 8 (by norm_num) g pt (fun _ _ => rfl)

end Cert.MaskedLoss
-- ==== Proof.KernelValue.lean ====
/-
  The kernel program's result: zero plus the sum, over all 2^24 elements, of the kernel's masked term.

  After the region the host adds the two cores' totals to zero. Core q's total is the running total after its
  eighth block, the sum of its eight block sums; block t's sum runs over its 8192 rows and 128 lanes, and lane l
  of row r of block t is flat element (t*8192 + r)*128 + l of the arguments. Every flat position arises exactly
  once, so the nested sums are the one sum over all elements.
-/
import proofs.«112692_j45440753992375_2_alg».proof.Proof.KernelArray
import proofs.«112692_j45440753992375_2_alg».proof.Proof.KernelTail
import proofs.«112692_j45440753992375_2_alg».proof.Proof.KernelTotal
import proofs.«112692_j45440753992375_2_alg».proof.Proof.KernelInputs
import proofs.«112692_j45440753992375_2_alg».proof.Proof.SumLayout

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.MaskedLoss

variable (m : (ℓ : Loc nD τ sig) → Buf (Elt Ideal) ℓ) (ρ : Dev nD → PrngReg)

/-- The kernel's term of flat element `k` of the arguments. -/
def elem (c : Dev nD) (k : Fin 16777216) : EReal :=
  kterm ((m ((c : Thread nD τ).loc main_arg0) : Vec Ideal S16777216 .f32) (ix1 k))
    ((m ((c : Thread nD τ).loc main_arg1) : Vec Ideal S16777216 .f32) (ix1 k))
    ((m ((c : Thread nD τ).loc main_arg2) : Vec Ideal S16777216 .i32) (ix1 k))

/-- The program's one-element result. -/
def total (c : Dev nD) : Buf (Elt Ideal) ((c : Thread nD τ).loc main_v5) := fun _ => 0 + ∑ k : Fin 16777216, elem m c k

/-- A block's sum of terms, over the flat positions of its elements. -/
theorem blockSum_eq (c : Dev nD) (t : Fin cfg0.N) :
    Total.blockSum m c t = ∑ r : Fin 8192, ∑ l : Fin 128, elem m c (pos ⟨t.val, Inputs.point_lt t⟩ r l) := by
  unfold Total.blockSum elem
  refine Finset.sum_congr rfl fun r _ => Finset.sum_congr rfl fun l _ => ?_
  rw [Inputs.iblk0_apply m c t r l, Inputs.iblk1_apply m c t r l, Inputs.iblk2_apply m c t r l]

/-- What the host's last operations leave in the result buffer. -/
theorem value (c : Dev nD) :
    Pipeline.afterTail₀ cfgs (dats m) 0 (V0 m) [hostOps1] c main_v5 = total m c := by
  refine (Tail.tail_eq m c).trans ?_
  have e : ((dats m 0 c).arrAt 3 cfg0.N : Vec Ideal S2x1x1 .f32) = Array.result m c := Array.final m c
  funext i
  refine (congrArg (fun A : Vec Ideal S2x1x1 .f32 =>
      shapeCast S1 (Host.reduceAdd (F := Ideal) A (constant (F := Ideal) S_ .f32 0x00000000#32) reducesTo_S2x1x1_S_d0_1_2 h_S_)
        shapeCasts_S_S1 i) e).trans ?_
  refine (Tail.tail_apply (Array.result m c) i).trans ?_
  show 0 + ∑ q : Fin 2, Array.result m c (ix3 q (0 : Fin 1) (0 : Fin 1)) = 0 + ∑ k : Fin 16777216, elem m c k
  refine congrArg (fun x : EReal => 0 + x) ?_
  rw [sum_pos (elem m c), sum_pt]
  refine Finset.sum_congr rfl fun q _ => ?_
  have hq : q.val * 8 + 7 < cfg0.N := by have := q.isLt; have hN : cfg0.N = 16 := N_0; omega
  show Accum.cell m c (q.val * 8 + 7) hq (ix3 (0 : Fin 1) (0 : Fin 1) (0 : Fin 1)) = _
  rw [Total.cell_core_total m c q hq]
  refine Finset.sum_congr rfl fun s _ => ?_
  rw [blockSum_eq]
  rfl

/-- THE RUN: every weakly fair execution ends with the result buffer at that total and the arguments as launched. -/
theorem run : θ_run defs (onTc (τ := τ) (main (F := Ideal))) ⟨m, fun _ => 0, ρ⟩ (fun r => ∀ c : Dev nD,
      r.2.mem ((c : Thread nD τ).loc main_v5) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).2 main_v5 (Pipeline.mem_restRefs_of main_v5 (by decide) (by decide))).trans (value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Result

end
-- ==== Proof.lean ====
/-
  The kernel and the reference compute the same masked smooth-L1 total.

  Per element, with d the difference of the two float inputs and n the third input read as a signed integer,
  the kernel adds  [ |d| * n >= 1 ] * ( d*d if |d| < 1/2, |d| - 1/4 otherwise )  and the reference adds
  [ |d| >= 1/n ] * ( (1/2*d*d)/(1/2) if |d| < 1/2, |d| - 1/4 otherwise ). Under the precondition the floats are
  real and n >= 0. For n >= 1 the two threshold tests are the same inequality on the reals; for n = 0 the
  kernel tests 0 >= 1 and the reference tests |d| >= +infinity, both false; and (1/2*d*d)/(1/2) = d*d on the
  reals. So the two terms agree element by element (Proof/Pointwise.lean).

  The reference sums the terms over all 2^24 elements from zero (Proof/RefValue.lean). The kernel walks the same
  elements as sixteen blocks of 8192 rows of 128 lanes, eight blocks per core: each grid step adds its block's
  sum to a one-element running total (Proof/KernelStep.lean, Proof/KernelPieces.lean, Proof/KernelAccum.lean,
  Proof/KernelTotal.lean), each core writes its total out after its eighth block (Proof/KernelArray.lean), and the
  host adds the two totals to zero (Proof/KernelTail.lean). Lane l of row r of block t is flat element
  (t*8192 + r)*128 + l (Proof/KernelInputs.lean), and every flat position arises exactly once
  (Proof/SumLayout.lean), so the kernel's result is zero plus the sum of its terms over all elements
  (Proof/KernelValue.lean). Finite sums on the extended reals do not depend on grouping or order, so the
  results are equal.

  The frames of the two kernel programs are the generated ones; the reference's frame is its generated run with
  the result dropped; the idealization rewrote nothing, so that conjunct is trivial.
-/
import proofs.«112692_j45440753992375_2_alg».proof.Defs
import proofs.«112692_j45440753992375_2_alg».proof.Proof.Gen.Kernel
import proofs.«112692_j45440753992375_2_alg».proof.Proof.Gen.Kernel.Skeleton
import proofs.«112692_j45440753992375_2_alg».proof.Proof.Gen.Kernel.Launch
import proofs.«112692_j45440753992375_2_alg».proof.Proof.Gen.Kernel.Points
import proofs.«112692_j45440753992375_2_alg».proof.Proof.Gen.Kernel.Frame
import proofs.«112692_j45440753992375_2_alg».proof.Proof.Gen.KernelIdeal
import proofs.«112692_j45440753992375_2_alg».proof.Proof.Gen.KernelIdeal.Skeleton
import proofs.«112692_j45440753992375_2_alg».proof.Proof.Gen.KernelIdeal.Launch
import proofs.«112692_j45440753992375_2_alg».proof.Proof.Gen.KernelIdeal.Points
import proofs.«112692_j45440753992375_2_alg».proof.Proof.Gen.KernelIdeal.Frame
import proofs.«112692_j45440753992375_2_alg».proof.Proof.Gen.ReferenceIdeal
import proofs.«112692_j45440753992375_2_alg».proof.Proof.Gen.Pre_finite_inputs
import proofs.«112692_j45440753992375_2_alg».proof.Proof.RefValue
import proofs.«112692_j45440753992375_2_alg».proof.Proof.Finite
import proofs.«112692_j45440753992375_2_alg».proof.Proof.Pointwise
import proofs.«112692_j45440753992375_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at zero plus the sum of the per-element terms, and the terms agree where the floats are
    real and the lengths nonnegative. -/
theorem algebraic : Cert.algebraic_KernelIdeal_ReferenceIdeal := by
  intro m ρ m' ρ' hpre hagree
  refine ⟨fun c => Cert.KernelIdeal.Result.total m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq]
  funext i
  rw [Cert.ReferenceIdeal.RefValue.ref_value, (hagree c).1, (hagree c).2.1, (hagree c).2.2]
  obtain ⟨h0, h1, h2⟩ := Cert.MaskedLoss.inputs_of_pre _ _ _ (hpre c)
  show 0 + ∑ k : Fin 16777216, Cert.MaskedLoss.rterm (m ((c.tc : Thread Cert.KernelIdeal.nD Cert.KernelIdeal.τ).loc Cert.KernelIdeal.main_arg0) (ix1 k)) (m ((c.tc : Thread Cert.KernelIdeal.nD Cert.KernelIdeal.τ).loc Cert.KernelIdeal.main_arg1) (ix1 k)) (m ((c.tc : Thread Cert.KernelIdeal.nD Cert.KernelIdeal.τ).loc Cert.KernelIdeal.main_arg2) (ix1 k))
    = 0 + ∑ k : Fin 16777216, Cert.KernelIdeal.Result.elem m c k
  refine congrArg (fun x : EReal => 0 + x) ?_
  refine Finset.sum_congr rfl fun k _ => ?_
  obtain ⟨a, ha⟩ := h0 (ix1 k)
  obtain ⟨b, hb⟩ := h1 (ix1 k)
  show Cert.MaskedLoss.rterm (m ((c.tc : Thread Cert.KernelIdeal.nD Cert.KernelIdeal.τ).loc Cert.KernelIdeal.main_arg0) (ix1 k)) (m ((c.tc : Thread Cert.KernelIdeal.nD Cert.KernelIdeal.τ).loc Cert.KernelIdeal.main_arg1) (ix1 k)) (m ((c.tc : Thread Cert.KernelIdeal.nD Cert.KernelIdeal.τ).loc Cert.KernelIdeal.main_arg2) (ix1 k))
    = Cert.MaskedLoss.kterm (m ((c.tc : Thread Cert.KernelIdeal.nD Cert.KernelIdeal.τ).loc Cert.KernelIdeal.main_arg0) (ix1 k)) (m ((c.tc : Thread Cert.KernelIdeal.nD Cert.KernelIdeal.τ).loc Cert.KernelIdeal.main_arg1) (ix1 k)) (m ((c.tc : Thread Cert.KernelIdeal.nD Cert.KernelIdeal.τ).loc Cert.KernelIdeal.main_arg2) (ix1 k))
  rw [ha, hb]
  exact (Cert.MaskedLoss.kterm_eq_rterm a b _ (h2 (ix1 k))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
